-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x64 .f32) (main_arg3 : FVec F S64 .f32) (main_arg4 : FVec F S64x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S4000x256 : Shape := ⟨2, ![4000, 256]⟩
abbrev S4000x1 : Shape := ⟨2, ![4000, 1]⟩
abbrev S4000x64 : Shape := ⟨2, ![4000, 64]⟩
abbrev S3300000x64 : Shape := ⟨2, ![3300000, 64]⟩
abbrev S1x64 : Shape := ⟨2, ![1, 64]⟩

abbrev nBuf : Space → Nat
  | .hbm => 59
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x64, .f32⟩
  | .hbm, ⟨38, _⟩ => ⟨S_, .f32⟩
  | .hbm, ⟨39, _⟩ => ⟨S100000x64, .f32⟩
  | .hbm, ⟨40, _⟩ => ⟨S3300000x1, .i32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x64, .f32⟩
  | .hbm, ⟨53, _⟩ => ⟨S_, .f32⟩
  | .hbm, ⟨54, _⟩ => ⟨S100000x64, .f32⟩
  | .hbm, ⟨55, _⟩ => ⟨S3300000x1, .i32⟩
  | .hbm, ⟨56, _⟩ => ⟨S100000x64, .f32⟩
  | .hbm, ⟨57, _⟩ => ⟨S1x64, .f32⟩
  | .hbm, ⟨58, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  scatter_S100000_S3300000x1_S3300000_n_0_0_1_wf : ScatterDims.WF S100000 S3300000x1 S3300000 [] [0] [0] 1
  dot_S4000x256_S256x64_S4000x64_1_0_0_1_n_n_wf : DotDims.WF S4000x256 S256x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S3300000x1, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x64, .f32⟩
  | .hbm, ⟨99, _⟩ => ⟨S3300000x64, .f32⟩
  | .hbm, ⟨100, _⟩ => ⟨S3300000x64, .f32⟩
  | .hbm, ⟨101, _⟩ => ⟨S_, .f32⟩
  | .hbm, ⟨102, _⟩ => ⟨S100000x64, .f32⟩
  | .hbm, ⟨103, _⟩ => ⟨S3300000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  dot_S100000x256_S256x64_S100000x64_1_0_0_1_n_n_wf : DotDims.WF S100000x256 S256x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The run of the three-kernel program with its result named.

  The program is eight segments: three stretches of host operations (the edge lists and the per-node factors, the
  outlined select, a reshape), the first kernel's region, a stretch of host operations (the first aggregation), the second
  kernel's region, a stretch of host operations (the second aggregation), the third kernel's region. After the last
  segment every buffer that is not scoped holds the contents folded through the segments from the launch memory; the
  result buffer is the third region's output array, so it ends holding what that region's write-backs leave, and the six
  argument arrays end as launched.
-/
import proofs.«118067_j46694884442280_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the contents the
    last segment boundary gives it and the argument arrays as launched. -/
theorem run : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibColumnBroadcast.lean ====
/- A general layout fact: a column broadcast over the lanes, read at an index. -/
import Idealize.ShloMosaic.Lib.Pipeline.Value
import Idealize.ShloMosaic.Lib.ValueIdx

namespace Cert.Lib

open Idealize.ShloMosaic Idealize.ShloMosaic.ValueIdx

/-- An `[a, 1]` array (one value per row, as a reduction that keeps its axis leaves it) broadcast to `[a, b]` reads, at
    `(p, c)`, row `p`'s one value, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Region0Value.lean ====
/-
  What the first kernel leaves in its output array.

  The first kernel walks the node rows in 25 blocks of 4000. At block `t` it multiplies rows `4000 t … 4000 t + 3999` of the
  features with the whole weight matrix (a product into a zero accumulator, the roundings on the way in being the
  identity on the extended reals) and scales row `p` of the product by that row's entry of the one-column array of
  per-node factors. The 25 blocks tile the output, so the output array ends as ONE function of the three input arrays:
  at `(i, c)` the sum over `k` of `x (i, k) * w (k, c)`, times `d (i, 0)`.
-/
import proofs.«118067_j46694884442280_2_alg».proof.Proof.Gen.KernelIdeal.Frame
import proofs.«118067_j46694884442280_2_alg».proof.Proof.LibMatmul2
import proofs.«118067_j46694884442280_2_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat)
open scoped BigOperators

/-- Entry `(p, q)` of the scaled product. -/
def scaledAt (x : S100000x256.Idx → EReal) (w : S256x64.Idx → EReal) (d : S100000x1.Idx → EReal)
    (p : Fin 100000) (q : Fin 64) : EReal :=
  (∑ k : Fin 256, x (ix2 p k) * w (ix2 k q)) * d (ix2 p (0 : Fin 1))

/-- The scaled product as an array. -/
def scaled (x : S100000x256.Idx → EReal) (w : S256x64.Idx → EReal) (d : S100000x1.Idx → EReal) :
    S100000x64.Idx → EReal :=
  fun i => scaledAt x w d ⟨(i 0).val, idx2_lt0 i⟩ ⟨(i 1).val, idx2_lt1 i⟩

theorem scaled_apply (x : S100000x256.Idx → EReal) (w : S256x64.Idx → EReal) (d : S100000x1.Idx → EReal)
    (p : Fin 100000) (q : Fin 64) : scaled x w d (ix2 p q) = scaledAt x w d p q := rfl

/-- An array's entry, as an extended real. -/
abbrev entry {s : Shape} (f : s.Idx → EReal) (i : s.Idx) : EReal := f i

theorem hz : (![0, 0] : Fin 2 → Nat) = fun _ => 0 := funext fun a => by fin_cases a <;> rfl

/-- The body's stored value at `(p, q)` of the block: the product's entry times the row's factor. -/
theorem pay_at (x0 : Vec Ideal S4000x256 .f32) (x1 : Vec Ideal S256x64 .f32) (x2 : Vec Ideal S4000x1 .f32)
    (p : Fin 4000) (q : Fin 64) :
    k0_pay1 x0 x1 x2 (ix2 p q) = (∑ k : Fin 256, x0 (ix2 p k) * x1 (ix2 k q)) * x2 (ix2 p (0 : Fin 1)) := by
  unfold k0_pay1
  refine (congrArg₂ (· * ·) (Cert.Lib.matmul2_zero_apply _ _ _ p q) (Cert.Lib.broadcastTo_a1_ab_apply _ _ p q)).trans ?_
  rw [shapeCast_self]
  rfl

/-- The same at any index of the block. -/
theorem pay_apply (x0 : Vec Ideal S4000x256 .f32) (x1 : Vec Ideal S256x64 .f32) (x2 : Vec Ideal S4000x1 .f32)
    (y : S4000x64.Idx) :
    k0_pay1 x0 x1 x2 y = (∑ k : Fin 256, x0 (ix2 ⟨(y 0).val, idx2_lt0 y⟩ k) * x1 (ix2 k ⟨(y 1).val, idx2_lt1 y⟩))
      * x2 (ix2 ⟨(y 0).val, idx2_lt0 y⟩ (0 : Fin 1)) := by
  obtain ⟨p, q, rfl⟩ : ∃ (p : Fin 4000) (q : Fin 64), y = ix2 p q := ⟨y 0, y 1, eq_ix2 y⟩
  exact pay_at x0 x1 x2 p q

/-- The block indices over the grid: the features, the factors and the output move together down the rows, the
    weights stay. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every one of the 25 row blocks is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

variable (V : (c : Dev nD) → (b : Ref sig .tc) → Buf (Elt Ideal) ((c : Thread nD τ).loc b))

/-- What point `t` writes back is block `t` of the scaled product of the arrays as the region finds them. -/
theorem flushed_eq (c : Dev nD) (t : Fin cfg0.N) :
    (dat0 V c).flushed 3 t
      = ((cfg0.win 3).blk t).view.read (Elt Ideal) (scaled (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x64) hz, View.ld_unit_zero (S := S4000x1) hz]
  obtain ⟨e0, e1, e2, e3, e4, e5, e6, e7⟩ := idx_facts t
  funext j
  refine (pay_apply _ _ _ j).trans ?_
  have hj0 : (j 0).val < 4000 := (j 0).isLt
  have hj1 : (j 1).val < 64 := (j 1).isLt
  show (∑ k : Fin 256, entry (V c main_arg0) (((cfg0.win 0).blk t).view.emb (ix2 ⟨(j 0).val, hj0⟩ k))
        * entry (V c main_arg2) (((cfg0.win 1).blk t).view.emb (ix2 k ⟨(j 1).val, hj1⟩)))
      * entry (V c main_v15) (((cfg0.win 2).blk t).view.emb (ix2 ⟨(j 0).val, hj0⟩ (0 : Fin 1)))
    = scaled (V c main_arg0) (V c main_arg2) (V c main_v15) (((cfg0.win 3).blk t).view.emb j)
  have h3 : ((cfg0.win 3).blk t).view.emb j
      = ix2 (⟨win0_3.index t (0 : Fin 2) * 4000 + (j 0).val, by omega⟩ : Fin 100000) (⟨(j 1).val, hj1⟩ : Fin 64) := by
    funext a; apply Fin.ext
    match a with
    | ⟨0, _⟩ => show win0_3.index t (0 : Fin 2) * 4000 + 1 * (j 0).val = win0_3.index t (0 : Fin 2) * 4000 + (j 0).val; omega
    | ⟨1, _⟩ => show win0_3.index t (1 : Fin 2) * 64 + 1 * (j 1).val = (j 1).val; omega
  have h0 : ∀ k : Fin 256, ((cfg0.win 0).blk t).view.emb (ix2 ⟨(j 0).val, hj0⟩ k)
      = ix2 (⟨win0_3.index t (0 : Fin 2) * 4000 + (j 0).val, by omega⟩ : Fin 100000) k := by
    intro k
    funext a; apply Fin.ext
    match a with
    | ⟨0, _⟩ => show win0_0.index t (0 : Fin 2) * 4000 + 1 * (j 0).val = win0_3.index t (0 : Fin 2) * 4000 + (j 0).val; omega
    | ⟨1, _⟩ => show win0_0.index t (1 : Fin 2) * 256 + 1 * k.val = k.val; omega
  have h1 : ∀ k : Fin 256, ((cfg0.win 1).blk t).view.emb (ix2 k ⟨(j 1).val, hj1⟩) = ix2 k (⟨(j 1).val, hj1⟩ : Fin 64) := by
    intro k
    funext a; apply Fin.ext
    match a with
    | ⟨0, _⟩ => show win0_1.index t (0 : Fin 2) * 256 + 1 * k.val = k.val; omega
    | ⟨1, _⟩ => show win0_1.index t (1 : Fin 2) * 64 + 1 * (j 1).val = (j 1).val; omega
  have h2 : ((cfg0.win 2).blk t).view.emb (ix2 ⟨(j 0).val, hj0⟩ (0 : Fin 1))
      = ix2 (⟨win0_3.index t (0 : Fin 2) * 4000 + (j 0).val, by omega⟩ : Fin 100000) (0 : Fin 1) := by
    funext a; apply Fin.ext
    match a with
    | ⟨0, _⟩ => show win0_2.index t (0 : Fin 2) * 4000 + 1 * (j 0).val = win0_3.index t (0 : Fin 2) * 4000 + (j 0).val; omega
    | ⟨1, _⟩ => show win0_2.index t (1 : Fin 2) * 1 + 1 * 0 = 0; omega
  rw [h3, scaled_apply, h2]
  unfold scaledAt
  refine congrArg (· * _) (Finset.sum_congr rfl fun k _ => ?_)
  rw [h0 k, h1 k]

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v16).slice (win0_3.rect t)).set ↔ _
  rw [View.set_slice_whole, Rect.mem_set_unit]
  exact Iff.rfl

/-- The 25 blocks cover the output: row `r` is in block `r / 4000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- The output array after the region: the scaled product of the arrays as the region finds them. -/
theorem final (c : Dev nD) :
    (dat0 V c).arrAt 3 cfg0.N = scaled (V c main_arg0) (V c main_arg2) (V c main_v15) :=
  (dat0 V c).arrAt_eq_of_cover 3 _ (fun t _ => flushed_eq V c t) cover

end Cert.KernelIdeal.Region0

end
-- ==== Proof.Region1Value.lean ====
/-
  What the second kernel leaves in its output array.

  The second kernel walks the node rows in 25 blocks of 4000. For row `p` of a block it scales the aggregated row by the
  row's factor, adds the bias row, takes the maximum with zero, multiplies the result with the whole second weight
  matrix (a product into a zero accumulator; the roundings on the way in are the identity on the extended reals) and
  scales the product's row by the row's factor again. The 25 blocks tile the output, so the output array ends as ONE
  function of the four input arrays: at `(i, c)` the sum over `k` of
  `max (a (i, k) * d (i, 0) + b (0, k)) 0 * w (k, c)`, times `d (i, 0)`.
-/
import proofs.«118067_j46694884442280_2_alg».proof.Proof.Gen.KernelIdeal.Frame
import proofs.«118067_j46694884442280_2_alg».proof.Proof.LibMatmul2
import proofs.«118067_j46694884442280_2_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat)
open scoped BigOperators

/-- Entry `(p, q)` of the hidden layer's scaled projection. -/
def hiddenAt (a : S100000x64.Idx → EReal) (d : S100000x1.Idx → EReal) (b : S1x64.Idx → EReal) (w : S64x64.Idx → EReal)
    (p : Fin 100000) (q : Fin 64) : EReal :=
  (∑ k : Fin 64, max (a (ix2 p k) * d (ix2 p (0 : Fin 1)) + b (ix2 (0 : Fin 1) k)) (Ideal.ofBits .f32 0x00000000#32)
      * w (ix2 k q)) * d (ix2 p (0 : Fin 1))

/-- The same as an array. -/
def hidden (a : S100000x64.Idx → EReal) (d : S100000x1.Idx → EReal) (b : S1x64.Idx → EReal) (w : S64x64.Idx → EReal) :
    S100000x64.Idx → EReal :=
  fun i => hiddenAt a d b w ⟨(i 0).val, idx2_lt0 i⟩ ⟨(i 1).val, idx2_lt1 i⟩

theorem hidden_apply (a : S100000x64.Idx → EReal) (d : S100000x1.Idx → EReal) (b : S1x64.Idx → EReal)
    (w : S64x64.Idx → EReal) (p : Fin 100000) (q : Fin 64) : hidden a d b w (ix2 p q) = hiddenAt a d b w p q := rfl

/-- An array's entry, as an extended real. -/
abbrev entry {s : Shape} (f : s.Idx → EReal) (i : s.Idx) : EReal := f i

theorem hz : (![0, 0] : Fin 2 → Nat) = fun _ => 0 := funext fun a => by fin_cases a <;> rfl

/-- The body's stored value at `(p, q)` of the block. -/
theorem pay_at (v0 : Vec Ideal S4000x64 .f32) (v2 : Vec Ideal S4000x1 .f32) (v6 : Vec Ideal S1x64 .f32)
    (v13 : Vec Ideal S64x64 .f32) (v16 : Vec Ideal S4000x1 .f32) (p : Fin 4000) (q : Fin 64) :
    k1_pay1 v0 v2 v6 v13 v16 (ix2 p q)
      = (∑ k : Fin 64, max (v0 (ix2 p k) * v2 (ix2 p (0 : Fin 1)) + v6 (ix2 (0 : Fin 1) k)) (Ideal.ofBits .f32 0x00000000#32)
          * v13 (ix2 k q)) * v16 (ix2 p (0 : Fin 1)) := by
  unfold k1_pay1
  refine (congrArg₂ (· * ·) (Cert.Lib.matmul2_zero_apply _ _ _ p q) (Cert.Lib.broadcastTo_a1_ab_apply _ _ p q)).trans ?_
  simp only [shapeCast_self]
  refine congrArg (fun s : EReal => s * v16 (ix2 p (0 : Fin 1))) (Finset.sum_congr rfl fun k _ => ?_)
  refine congrArg (fun a : EReal => a * v13 (ix2 k q)) ?_
  refine congrArg (fun a : EReal => max a (Ideal.ofBits .f32 0x00000000#32)) ?_
  exact congrArg₂ (fun a b : EReal => a + b)
    (congrArg (fun b : EReal => v0 (ix2 p k) * b) (Cert.Lib.broadcastTo_a1_ab_apply _ _ p k))
    (broadcastTo_1b_ab_apply _ _ p k)

/-- The same at any index of the block. -/
theorem pay_apply (v0 : Vec Ideal S4000x64 .f32) (v2 : Vec Ideal S4000x1 .f32) (v6 : Vec Ideal S1x64 .f32)
    (v13 : Vec Ideal S64x64 .f32) (v16 : Vec Ideal S4000x1 .f32) (y : S4000x64.Idx) :
    k1_pay1 v0 v2 v6 v13 v16 y
      = (∑ k : Fin 64, max (v0 (ix2 ⟨(y 0).val, idx2_lt0 y⟩ k) * v2 (ix2 ⟨(y 0).val, idx2_lt0 y⟩ (0 : Fin 1))
            + v6 (ix2 (0 : Fin 1) k)) (Ideal.ofBits .f32 0x00000000#32) * v13 (ix2 k ⟨(y 1).val, idx2_lt1 y⟩))
        * v16 (ix2 ⟨(y 0).val, idx2_lt0 y⟩ (0 : Fin 1)) := by
  obtain ⟨p, q, rfl⟩ : ∃ (p : Fin 4000) (q : Fin 64), y = ix2 p q := ⟨y 0, y 1, eq_ix2 y⟩
  exact pay_at v0 v2 v6 v13 v16 p q

/-- The block indices over the grid: the aggregate, the factors and the output move together down the rows, the bias
    row and the weights stay. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every one of the 25 row blocks is some point's. -/
theorem idx_onto : ∀ q0 : Fin 25, ∃ t : Fin cfg1.N, win1_4.index t = ![q0.val, 0] :=
  (by decide +kernel : ∀ q0 : Fin 25, ∃ t : Fin grid1.N, win1_4.index t = ![q0.val, 0])

variable (V : (c : Dev nD) → (b : Ref sig .tc) → Buf (Elt Ideal) ((c : Thread nD τ).loc b))

/-- What point `t` writes back is block `t` of the hidden layer's scaled projection of the arrays as the region finds them. -/
theorem flushed_eq (c : Dev nD) (t : Fin cfg1.N) :
    (dat1 V c).flushed 4 t
      = ((cfg1.win 4).blk t).view.read (Elt Ideal)
          (hidden (V c main_v26) (V c main_v15) (V c main_v27) (V c main_arg4)) := by
  show (cfg1.win 4).cut (grid1.coords t) ((dat1 V c).after 4 t) = _
  rw [after1_4]
  unfold out1_4
  rw [View.canon_unit_zero hz]
  simp only [View.ld_unit_zero (S := S4000x64) hz, View.ld_unit_zero (S := S4000x1) hz, View.ld_unit_zero (S := S1x64) hz,
    View.ld_unit_zero (S := S64x64) hz]
  obtain ⟨e0, e1, e2, e3, e4, e5, e6, e7, e8, e9⟩ := idx_facts t
  funext j
  refine (pay_apply _ _ _ _ _ j).trans ?_
  have hj0 : (j 0).val < 4000 := (j 0).isLt
  have hj1 : (j 1).val < 64 := (j 1).isLt
  show (∑ k : Fin 64, max (entry (V c main_v26) (((cfg1.win 0).blk t).view.emb (ix2 ⟨(j 0).val, hj0⟩ k))
          * entry (V c main_v15) (((cfg1.win 1).blk t).view.emb (ix2 ⟨(j 0).val, hj0⟩ (0 : Fin 1)))
          + entry (V c main_v27) (((cfg1.win 2).blk t).view.emb (ix2 (0 : Fin 1) k))) (Ideal.ofBits .f32 0x00000000#32)
        * entry (V c main_arg4) (((cfg1.win 3).blk t).view.emb (ix2 k ⟨(j 1).val, hj1⟩)))
      * entry (V c main_v15) (((cfg1.win 1).blk t).view.emb (ix2 ⟨(j 0).val, hj0⟩ (0 : Fin 1)))
    = hidden (V c main_v26) (V c main_v15) (V c main_v27) (V c main_arg4) (((cfg1.win 4).blk t).view.emb j)
  have h4 : ((cfg1.win 4).blk t).view.emb j
      = ix2 (⟨win1_4.index t (0 : Fin 2) * 4000 + (j 0).val, by omega⟩ : Fin 100000) (⟨(j 1).val, hj1⟩ : Fin 64) := by
    funext a; apply Fin.ext
    match a with
    | ⟨0, _⟩ => show win1_4.index t (0 : Fin 2) * 4000 + 1 * (j 0).val = win1_4.index t (0 : Fin 2) * 4000 + (j 0).val; omega
    | ⟨1, _⟩ => show win1_4.index t (1 : Fin 2) * 64 + 1 * (j 1).val = (j 1).val; omega
  have h0 : ∀ k : Fin 64, ((cfg1.win 0).blk t).view.emb (ix2 ⟨(j 0).val, hj0⟩ k)
      = ix2 (⟨win1_4.index t (0 : Fin 2) * 4000 + (j 0).val, by omega⟩ : Fin 100000) k := by
    intro k
    funext a; apply Fin.ext
    match a with
    | ⟨0, _⟩ => show win1_0.index t (0 : Fin 2) * 4000 + 1 * (j 0).val = win1_4.index t (0 : Fin 2) * 4000 + (j 0).val; omega
    | ⟨1, _⟩ => show win1_0.index t (1 : Fin 2) * 64 + 1 * k.val = k.val; omega
  have h1 : ((cfg1.win 1).blk t).view.emb (ix2 ⟨(j 0).val, hj0⟩ (0 : Fin 1))
      = ix2 (⟨win1_4.index t (0 : Fin 2) * 4000 + (j 0).val, by omega⟩ : Fin 100000) (0 : Fin 1) := by
    funext a; apply Fin.ext
    match a with
    | ⟨0, _⟩ => show win1_1.index t (0 : Fin 2) * 4000 + 1 * (j 0).val = win1_4.index t (0 : Fin 2) * 4000 + (j 0).val; omega
    | ⟨1, _⟩ => show win1_1.index t (1 : Fin 2) * 1 + 1 * 0 = 0; omega
  have h2 : ∀ k : Fin 64, ((cfg1.win 2).blk t).view.emb (ix2 (0 : Fin 1) k) = ix2 (0 : Fin 1) k := by
    intro k
    funext a; apply Fin.ext
    match a with
    | ⟨0, _⟩ => show win1_2.index t (0 : Fin 2) * 1 + 1 * 0 = 0; omega
    | ⟨1, _⟩ => show win1_2.index t (1 : Fin 2) * 64 + 1 * k.val = k.val; omega
  have h3 : ∀ k : Fin 64, ((cfg1.win 3).blk t).view.emb (ix2 k ⟨(j 1).val, hj1⟩) = ix2 k (⟨(j 1).val, hj1⟩ : Fin 64) := by
    intro k
    funext a; apply Fin.ext
    match a with
    | ⟨0, _⟩ => show win1_3.index t (0 : Fin 2) * 64 + 1 * k.val = k.val; omega
    | ⟨1, _⟩ => show win1_3.index t (1 : Fin 2) * 64 + 1 * (j 1).val = (j 1).val; omega
  rw [h4, hidden_apply, h1]
  unfold hiddenAt
  refine congrArg (· * _) (Finset.sum_congr rfl fun k _ => ?_)
  rw [h0 k, h2 k, h3 k]

/-- An index of the output array is in point `t`'s block iff each coordinate is in the block's range on its axis. -/
theorem mem_blk (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v28).slice (win1_4.rect t)).set ↔ _
  rw [View.set_slice_whole, Rect.mem_set_unit]
  exact Iff.rfl

/-- The 25 blocks cover the output: row `r` is in block `r / 4000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- The output array after the region. -/
theorem final (c : Dev nD) :
    (dat1 V c).arrAt 4 cfg1.N = hidden (V c main_v26) (V c main_v15) (V c main_v27) (V c main_arg4) :=
  (dat1 V c).arrAt_eq_of_cover 4 _ (fun t _ => flushed_eq V c t) cover

end Cert.KernelIdeal.Region1

end
-- ==== Proof.Region2Value.lean ====
/-
  What the third kernel leaves in its output array.

  The third kernel walks the node rows in 25 blocks of 4000: it scales row `p` of the aggregate by the row's factor and
  adds the bias row. The 25 blocks tile the output, so the output array ends as ONE function of the three input
  arrays: at `(i, c)`, `a (i, c) * d (i, 0) + b (0, c)`.
-/
import proofs.«118067_j46694884442280_2_alg».proof.Proof.Gen.KernelIdeal.Frame
import proofs.«118067_j46694884442280_2_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat)
open scoped BigOperators

/-- Entry `(p, q)` of the scaled aggregate plus the bias. -/
def outAt (a : S100000x64.Idx → EReal) (d : S100000x1.Idx → EReal) (b : S1x64.Idx → EReal)
    (p : Fin 100000) (q : Fin 64) : EReal :=
  a (ix2 p q) * d (ix2 p (0 : Fin 1)) + b (ix2 (0 : Fin 1) q)

/-- The same as an array. -/
def out (a : S100000x64.Idx → EReal) (d : S100000x1.Idx → EReal) (b : S1x64.Idx → EReal) : S100000x64.Idx → EReal :=
  fun i => outAt a d b ⟨(i 0).val, idx2_lt0 i⟩ ⟨(i 1).val, idx2_lt1 i⟩

theorem out_apply (a : S100000x64.Idx → EReal) (d : S100000x1.Idx → EReal) (b : S1x64.Idx → EReal)
    (p : Fin 100000) (q : Fin 64) : out a d b (ix2 p q) = outAt a d b p q := rfl

/-- An array's entry, as an extended real. -/
abbrev entry {s : Shape} (f : s.Idx → EReal) (i : s.Idx) : EReal := f i

theorem hz : (![0, 0] : Fin 2 → Nat) = fun _ => 0 := funext fun a => by fin_cases a <;> rfl

/-- The body's stored value at `(p, q)` of the block. -/
theorem pay_at (v0 : Vec Ideal S4000x64 .f32) (v2 : Vec Ideal S4000x1 .f32) (v6 : Vec Ideal S1x64 .f32)
    (p : Fin 4000) (q : Fin 64) :
    k2_pay1 v0 v2 v6 (ix2 p q) = v0 (ix2 p q) * v2 (ix2 p (0 : Fin 1)) + v6 (ix2 (0 : Fin 1) q) := by
  unfold k2_pay1
  refine congrArg₂ (· + ·) (congrArg₂ (· * ·) ?_ ((Cert.Lib.broadcastTo_a1_ab_apply _ _ p q).trans ?_))
    ((broadcastTo_1b_ab_apply _ _ p q).trans ?_)
  · rw [shapeCast_self]
  · rw [shapeCast_self]
  · rw [shapeCast_self]

/-- The same at any index of the block. -/
theorem pay_apply (v0 : Vec Ideal S4000x64 .f32) (v2 : Vec Ideal S4000x1 .f32) (v6 : Vec Ideal S1x64 .f32)
    (y : S4000x64.Idx) :
    k2_pay1 v0 v2 v6 y = v0 (ix2 ⟨(y 0).val, idx2_lt0 y⟩ ⟨(y 1).val, idx2_lt1 y⟩)
      * v2 (ix2 ⟨(y 0).val, idx2_lt0 y⟩ (0 : Fin 1)) + v6 (ix2 (0 : Fin 1) ⟨(y 1).val, idx2_lt1 y⟩) := by
  obtain ⟨p, q, rfl⟩ : ∃ (p : Fin 4000) (q : Fin 64), y = ix2 p q := ⟨y 0, y 1, eq_ix2 y⟩
  exact pay_at v0 v2 v6 p q

/-- The block indices over the grid: the aggregate, the factors and the output move together down the rows, the bias
    row stays. -/
theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 24 :=
  (by decide +kernel : ∀ t : Fin grid2.N, _)

/-- Every one of the 25 row blocks is some point's. -/
theorem idx_onto : ∀ q0 : Fin 25, ∃ t : Fin cfg2.N, win2_3.index t = ![q0.val, 0] :=
  (by decide +kernel : ∀ q0 : Fin 25, ∃ t : Fin grid2.N, win2_3.index t = ![q0.val, 0])

variable (V : (c : Dev nD) → (b : Ref sig .tc) → Buf (Elt Ideal) ((c : Thread nD τ).loc b))

/-- What point `t` writes back is block `t` of the scaled aggregate plus the bias, of the arrays as the region finds them. -/
theorem flushed_eq (c : Dev nD) (t : Fin cfg2.N) :
    (dat2 V c).flushed 3 t
      = ((cfg2.win 3).blk t).view.read (Elt Ideal) (out (V c main_v38) (V c main_v15) (V c main_v39)) := by
  show (cfg2.win 3).cut (grid2.coords t) ((dat2 V c).after 3 t) = _
  rw [after2_3]
  unfold out2_3
  rw [View.canon_unit_zero hz]
  simp only [View.ld_unit_zero (S := S4000x64) hz, View.ld_unit_zero (S := S4000x1) hz, View.ld_unit_zero (S := S1x64) hz]
  obtain ⟨e0, e1, e2, e3, e4, e5, e6, e7⟩ := idx_facts t
  funext j
  refine (pay_apply _ _ _ j).trans ?_
  have hj0 : (j 0).val < 4000 := (j 0).isLt
  have hj1 : (j 1).val < 64 := (j 1).isLt
  show entry (V c main_v38) (((cfg2.win 0).blk t).view.emb (ix2 ⟨(j 0).val, hj0⟩ ⟨(j 1).val, hj1⟩))
        * entry (V c main_v15) (((cfg2.win 1).blk t).view.emb (ix2 ⟨(j 0).val, hj0⟩ (0 : Fin 1)))
        + entry (V c main_v39) (((cfg2.win 2).blk t).view.emb (ix2 (0 : Fin 1) ⟨(j 1).val, hj1⟩))
    = out (V c main_v38) (V c main_v15) (V c main_v39) (((cfg2.win 3).blk t).view.emb j)
  have h3 : ((cfg2.win 3).blk t).view.emb j
      = ix2 (⟨win2_3.index t (0 : Fin 2) * 4000 + (j 0).val, by omega⟩ : Fin 100000) (⟨(j 1).val, hj1⟩ : Fin 64) := by
    funext a; apply Fin.ext
    match a with
    | ⟨0, _⟩ => show win2_3.index t (0 : Fin 2) * 4000 + 1 * (j 0).val = win2_3.index t (0 : Fin 2) * 4000 + (j 0).val; omega
    | ⟨1, _⟩ => show win2_3.index t (1 : Fin 2) * 64 + 1 * (j 1).val = (j 1).val; omega
  have h0 : ((cfg2.win 0).blk t).view.emb (ix2 ⟨(j 0).val, hj0⟩ ⟨(j 1).val, hj1⟩)
      = ix2 (⟨win2_3.index t (0 : Fin 2) * 4000 + (j 0).val, by omega⟩ : Fin 100000) (⟨(j 1).val, hj1⟩ : Fin 64) := by
    funext a; apply Fin.ext
    match a with
    | ⟨0, _⟩ => show win2_0.index t (0 : Fin 2) * 4000 + 1 * (j 0).val = win2_3.index t (0 : Fin 2) * 4000 + (j 0).val; omega
    | ⟨1, _⟩ => show win2_0.index t (1 : Fin 2) * 64 + 1 * (j 1).val = (j 1).val; omega
  have h1 : ((cfg2.win 1).blk t).view.emb (ix2 ⟨(j 0).val, hj0⟩ (0 : Fin 1))
      = ix2 (⟨win2_3.index t (0 : Fin 2) * 4000 + (j 0).val, by omega⟩ : Fin 100000) (0 : Fin 1) := by
    funext a; apply Fin.ext
    match a with
    | ⟨0, _⟩ => show win2_1.index t (0 : Fin 2) * 4000 + 1 * (j 0).val = win2_3.index t (0 : Fin 2) * 4000 + (j 0).val; omega
    | ⟨1, _⟩ => show win2_1.index t (1 : Fin 2) * 1 + 1 * 0 = 0; omega
  have h2 : ((cfg2.win 2).blk t).view.emb (ix2 (0 : Fin 1) ⟨(j 1).val, hj1⟩) = ix2 (0 : Fin 1) (⟨(j 1).val, hj1⟩ : Fin 64) := by
    funext a; apply Fin.ext
    match a with
    | ⟨0, _⟩ => show win2_2.index t (0 : Fin 2) * 1 + 1 * 0 = 0; omega
    | ⟨1, _⟩ => show win2_2.index t (1 : Fin 2) * 64 + 1 * (j 1).val = (j 1).val; omega
  rw [h3, out_apply, h0, h1, h2]
  rfl

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S4000x64.size a ≤ (i a).val
      ∧ (i a).val < win2_3.index t a * S4000x64.size a + S4000x64.size a := by
  show i ∈ ((View.whole main_v40).slice (win2_3.rect t)).set ↔ _
  rw [View.set_slice_whole, Rect.mem_set_unit]
  exact Iff.rfl

/-- The 25 blocks cover the output: row `r` is in block `r / 4000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 4000, by omega⟩
  have q0 : win2_3.index t (0 : Fin 2) = (i 0).val / 4000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 64 ≤ (i 1).val ∧ (i 1).val < win2_3.index t (1 : Fin 2) * 64 + 64; omega

/-- The output array after the region. -/
theorem final (c : Dev nD) :
    (dat2 V c).arrAt 3 cfg2.N = out (V c main_v38) (V c main_v15) (V c main_v39) :=
  (dat2 V c).arrAt_eq_of_cover 3 _ (fun t _ => flushed_eq V c t) cover

end Cert.KernelIdeal.Region2

end
-- ==== Proof.HostValue.lean ====
/-
  The three-kernel program's result as one function of its six arguments.

  Between the kernels the host computes, from the edge list alone, the source and destination words of every edge
  (the given edges followed by one self-loop per node) and the per-node factor (the reciprocal square root of the number
  of edges ending in the node, or zero); it aggregates the first kernel's output along the edges into the second
  kernel's input, and the second kernel's output into the third kernel's input. Folding the buffer contents through the
  eight segments, each kernel's output array being the function of its inputs found for its region, gives the result
  buffer after the run as a composition of those functions over the six argument arrays.

  The host's operations on the edge list are the same in this program and in the reference, so their results are named
  by the reference's stages: the two programs' terms are the same operations of the same argument.
-/
import proofs.«118067_j46694884442280_2_alg».proof.Proof.Gen.KernelIdeal.Frame
import proofs.«118067_j46694884442280_2_alg».proof.Proof.RefReadP
import proofs.«118067_j46694884442280_2_alg».proof.Proof.Region0Value
import proofs.«118067_j46694884442280_2_alg».proof.Proof.Region1Value
import proofs.«118067_j46694884442280_2_alg».proof.Proof.Region2Value
import Idealize.ShloMosaic.Lib.StableHlo.Run
import Idealize.ShloMosaic.PureOps.Ideal

set_option maxRecDepth 16384

noncomputable section

namespace Cert.KernelIdeal.HostValue

open Cert.KernelIdeal Cert.KernelIdeal.Gen Cert.ReferenceIdeal.Read
open Idealize.ShloMosaic Idealize.ShloMosaic.TcCoe Idealize.SL.Sem Idealize.ShloMosaic.StableHlo

/-! ## The vocabulary -/

/-- The per-node factors as a one-column matrix. -/
def dcol (x1 : S2x3200000.Idx → BitVec 32) : S100000x1.Idx → EReal :=
  shapeCast S100000x1 (val_main_v14 (F := Ideal) x1) shapeCasts_S100000_S100000x1

/-- The source words, a negative one moved up by the number of nodes, as a one-column matrix of start indices. -/
def srcIx (w3 : S3300000.Idx → BitVec 32) : S3300000x1.Idx → BitVec 32 :=
  broadcastInDim S3300000x1 ![0] bcast_S3300000_S3300000x1_0
    (select (cmpi .slt w3 (broadcastInDim S3300000 ![] bcast_S_S3300000 (constantI S_ 32 0#32)))
      (addi w3 (broadcastInDim S3300000 ![] bcast_S_S3300000 (constantI S_ 32 100000#32))) w3)

/-- One aggregation: the rows of `H` at the edges' sources, added into the rows at the edges' destinations. -/
def agg (w3 w6 : S3300000.Idx → BitVec 32) (H : S100000x64.Idx → EReal) : S100000x64.Idx → EReal :=
  Host.scatterAdd (F := Ideal) scatter_S100000x64_S3300000x1_S3300000x64_1_0_0_1
    (broadcastInDim S100000x64 ![] bcast_S_S100000x64 (constant S_ .f32 0x00000000#32))
    (broadcastInDim S3300000x1 ![0] bcast_S3300000_S3300000x1_0 w6)
    (Host.gather gather_S100000x64_S3300000x1_S3300000x64_1_0_n_n_0_1_164 H (srcIx w3))

/-- A bias vector as a one-row matrix. -/
def rowOf (b : S64.Idx → EReal) : S1x64.Idx → EReal := shapeCast S1x64 b shapeCasts_S64_S1x64

/-- The program's result as a function of its arguments. -/
def kernelValue (x0 : S100000x256.Idx → EReal) (x1 : S2x3200000.Idx → BitVec 32) (x2 : S256x64.Idx → EReal)
    (x3 : S64.Idx → EReal) (x4 : S64x64.Idx → EReal) (x5 : S64.Idx → EReal) : S100000x64.Idx → EReal :=
  Region2.out
    (agg (val_main_v3 (F := Ideal) x1) (val_main_v6 (F := Ideal) x1)
      (Region1.hidden
        (agg (val_main_v3 (F := Ideal) x1) (val_main_v6 (F := Ideal) x1) (Region0.scaled x0 x2 (dcol x1)))
        (dcol x1) (rowOf x3) x4))
    (dcol x1) (rowOf x5)

variable (m : (ℓ : Loc nD τ sig) → Buf (Elt Ideal) ℓ) (ρ : Dev nD → PrngReg) (c : Dev nD)

/-! ## The first kernel's entry: what the host has computed from the edge list, and the arguments -/

theorem v3_at3 : W3 m ρ c (Proc.devRef .tc main_v3) = val_main_v3 (F := Ideal) (m ((c.tc : Thread nD τ).loc main_arg1)) := by
  dsimp only [W3, W2, W1, hostOps0, hostOps0_1, hostOps0_2]
  after_results
  rfl

theorem v6_at3 : W3 m ρ c (Proc.devRef .tc main_v6) = val_main_v6 (F := Ideal) (m ((c.tc : Thread nD τ).loc main_arg1)) := by
  dsimp only [W3, W2, W1, hostOps0, hostOps0_1, hostOps0_2]
  after_results
  rfl

theorem v10_at1 : W1 m ρ c (Proc.devRef .tc main_v10) = val_main_v10 (F := Ideal) (m ((c.tc : Thread nD τ).loc main_arg1)) := by
  dsimp only [W1, hostOps0]
  after_results
  rfl

theorem v11_at1 : W1 m ρ c (Proc.devRef .tc main_v11) = val_main_v11 (F := Ideal) := by
  dsimp only [W1, hostOps0]
  after_results
  rfl

theorem cst2_at1 : W1 m ρ c (Proc.devRef .tc main_cst_2) = val_main_cst_2 (F := Ideal) := by
  dsimp only [W1, hostOps0]
  after_results
  rfl

theorem v12_at1 : W1 m ρ c (Proc.devRef .tc main_v12) = val_main_v12 (F := Ideal) (m ((c.tc : Thread nD τ).loc main_arg1)) := by
  have e : W1 m ρ c (Proc.devRef .tc main_v12)
      = cmpf (F := Ideal) (s := S100000) (φ := .f32) .ogt (W1 m ρ c (Proc.devRef .tc main_v10)) (W1 m ρ c (Proc.devRef .tc main_v11)) := by
    dsimp only [W1, hostOps0]
    after_results
  have h10 := v10_at1 m ρ c
  have h11 := v11_at1 m ρ c
  generalize W1 m ρ c = V at e h10 h11 ⊢
  rw [e, h10, h11]
  rfl

theorem v13_at1 : W1 m ρ c (Proc.devRef .tc main_v13) = val_main_v13 (F := Ideal) (m ((c.tc : Thread nD τ).loc main_arg1)) := by
  have e : W1 m ρ c (Proc.devRef .tc main_v13)
      = Host.rsqrt (F := Ideal) (s := S100000) (φ := .f32) (W1 m ρ c (Proc.devRef .tc main_v10)) := by
    dsimp only [W1, hostOps0]
    after_results
  have h10 := v10_at1 m ρ c
  generalize W1 m ρ c = V at e h10 ⊢
  rw [e, h10]
  rfl

/-- The outlined select, from any contents of its three operands. -/
theorem where_result (V : Valuation τ sig (Elt Ideal))
    (A : (⟨S100000, .i1⟩ : BufTy).Contents (Elt Ideal)) (hA : V (Proc.devRef .tc main_v12) = A)
    (B : (⟨S100000, .f32⟩ : BufTy).Contents (Elt Ideal)) (hB : V (Proc.devRef .tc main_v13) = B)
    (X : (⟨S_, .f32⟩ : BufTy).Contents (Elt Ideal)) (hX : V (Proc.devRef .tc main_cst_2) = X) :
    StableHlo.after (hostOps0_1 (F := Ideal)) V (Proc.devRef .tc main_v14)
      = select A B (broadcastInDim S100000 ![] bcast_S_S100000 (id X)) := by
  dsimp only [hostOps0_1]
  after_results
  rw [hX, hA, hB]
  rfl

/-- The reference's stage for the per-node factors is that select of its own stages. -/
theorem v14_unfold (x1 : S2x3200000.Idx → BitVec 32) :
    select (val_main_v12 (F := Ideal) x1) (val_main_v13 (F := Ideal) x1)
        (broadcastInDim S100000 ![] bcast_S_S100000 (id (val_main_cst_2 (F := Ideal))))
      = val_main_v14 (F := Ideal) x1 := by
  unfold val_main_v14 val_main_call0_v1 val_main_call0_v0
  rfl

theorem v14_at2 : W2 m ρ c (Proc.devRef .tc main_v14) = val_main_v14 (F := Ideal) (m ((c.tc : Thread nD τ).loc main_arg1)) :=
  (where_result (W1 m ρ c) _ (v12_at1 m ρ c) _ (v13_at1 m ρ c) _ (cst2_at1 m ρ c)).trans (v14_unfold _)

theorem v15_at3 : W3 m ρ c (Proc.devRef .tc main_v15) = dcol (m ((c.tc : Thread nD τ).loc main_arg1)) := by
  have h := v14_at2 m ρ c
  dsimp only [W3, hostOps0_2]
  generalize W2 m ρ c = V at h ⊢
  after_results
  rw [h]
  rfl

theorem arg0_at3 : W3 m ρ c (Proc.devRef .tc main_arg0) = m ((c.tc : Thread nD τ).loc main_arg0) := by
  dsimp only [W3, W2, W1, hostOps0, hostOps0_1, hostOps0_2]
  after_results

theorem arg2_at3 : W3 m ρ c (Proc.devRef .tc main_arg2) = m ((c.tc : Thread nD τ).loc main_arg2) := by
  dsimp only [W3, W2, W1, hostOps0, hostOps0_1, hostOps0_2]
  after_results

theorem arg3_at3 : W3 m ρ c (Proc.devRef .tc main_arg3) = m ((c.tc : Thread nD τ).loc main_arg3) := by
  dsimp only [W3, W2, W1, hostOps0, hostOps0_1, hostOps0_2]
  after_results

theorem arg4_at3 : W3 m ρ c (Proc.devRef .tc main_arg4) = m ((c.tc : Thread nD τ).loc main_arg4) := by
  dsimp only [W3, W2, W1, hostOps0, hostOps0_1, hostOps0_2]
  after_results

theorem arg5_at3 : W3 m ρ c (Proc.devRef .tc main_arg5) = m ((c.tc : Thread nD τ).loc main_arg5) := by
  dsimp only [W3, W2, W1, hostOps0, hostOps0_1, hostOps0_2]
  after_results

/-! ## After the first kernel -/

theorem v3_at4 : W4 m ρ c (Proc.devRef .tc main_v3) = val_main_v3 (F := Ideal) (m ((c.tc : Thread nD τ).loc main_arg1)) :=
  (W4_of_ne m ρ c main_v3 (by decide)).trans (v3_at3 m ρ c)
theorem v6_at4 : W4 m ρ c (Proc.devRef .tc main_v6) = val_main_v6 (F := Ideal) (m ((c.tc : Thread nD τ).loc main_arg1)) :=
  (W4_of_ne m ρ c main_v6 (by decide)).trans (v6_at3 m ρ c)
theorem arg3_at4 : W4 m ρ c (Proc.devRef .tc main_arg3) = m ((c.tc : Thread nD τ).loc main_arg3) :=
  (W4_of_ne m ρ c main_arg3 (by decide)).trans (arg3_at3 m ρ c)
theorem arg4_at4 : W4 m ρ c (Proc.devRef .tc main_arg4) = m ((c.tc : Thread nD τ).loc main_arg4) :=
  (W4_of_ne m ρ c main_arg4 (by decide)).trans (arg4_at3 m ρ c)
theorem arg5_at4 : W4 m ρ c (Proc.devRef .tc main_arg5) = m ((c.tc : Thread nD τ).loc main_arg5) :=
  (W4_of_ne m ρ c main_arg5 (by decide)).trans (arg5_at3 m ρ c)
theorem v15_at4 : W4 m ρ c (Proc.devRef .tc main_v15) = dcol (m ((c.tc : Thread nD τ).loc main_arg1)) :=
  (W4_arr m ρ c 2).trans ((((dat0 (V3 m ρ) c).arrAt_in 2 rfl _).trans (A_eq0 (V3 m ρ) c 2)).trans (v15_at3 m ρ c))
theorem v16_at4 : W4 m ρ c (Proc.devRef .tc main_v16)
    = Region0.scaled (m ((c.tc : Thread nD τ).loc main_arg0)) (m ((c.tc : Thread nD τ).loc main_arg2))
        (dcol (m ((c.tc : Thread nD τ).loc main_arg1))) := by
  refine (W4_arr m ρ c 3).trans ((Region0.final (V3 m ρ) c).trans ?_)
  show Region0.scaled (W3 m ρ c (Proc.devRef .tc main_arg0)) (W3 m ρ c (Proc.devRef .tc main_arg2))
    (W3 m ρ c (Proc.devRef .tc main_v15)) = _
  rw [arg0_at3, arg2_at3, v15_at3]

/-! ## The second kernel's entry -/

theorem v3_at5 : W5 m ρ c (Proc.devRef .tc main_v3) = val_main_v3 (F := Ideal) (m ((c.tc : Thread nD τ).loc main_arg1)) := by
  refine Eq.trans ?_ (v3_at4 m ρ c)
  dsimp only [W5, hostOps1]
  generalize W4 m ρ c = V
  after_results
theorem v6_at5 : W5 m ρ c (Proc.devRef .tc main_v6) = val_main_v6 (F := Ideal) (m ((c.tc : Thread nD τ).loc main_arg1)) := by
  refine Eq.trans ?_ (v6_at4 m ρ c)
  dsimp only [W5, hostOps1]
  generalize W4 m ρ c = V
  after_results
theorem arg4_at5 : W5 m ρ c (Proc.devRef .tc main_arg4) = m ((c.tc : Thread nD τ).loc main_arg4) := by
  refine Eq.trans ?_ (arg4_at4 m ρ c)
  dsimp only [W5, hostOps1]
  generalize W4 m ρ c = V
  after_results
theorem arg5_at5 : W5 m ρ c (Proc.devRef .tc main_arg5) = m ((c.tc : Thread nD τ).loc main_arg5) := by
  refine Eq.trans ?_ (arg5_at4 m ρ c)
  dsimp only [W5, hostOps1]
  generalize W4 m ρ c = V
  after_results
theorem v15_at5 : W5 m ρ c (Proc.devRef .tc main_v15) = dcol (m ((c.tc : Thread nD τ).loc main_arg1)) := by
  refine Eq.trans ?_ (v15_at4 m ρ c)
  dsimp only [W5, hostOps1]
  generalize W4 m ρ c = V
  after_results
theorem v27_at5 : W5 m ρ c (Proc.devRef .tc main_v27) = rowOf (m ((c.tc : Thread nD τ).loc main_arg3)) := by
  have h := arg3_at4 m ρ c
  dsimp only [W5, hostOps1]
  generalize W4 m ρ c = V at h ⊢
  after_results
  rw [h]
  rfl
theorem v26_at5 : W5 m ρ c (Proc.devRef .tc main_v26)
    = agg (val_main_v3 (F := Ideal) (m ((c.tc : Thread nD τ).loc main_arg1)))
        (val_main_v6 (F := Ideal) (m ((c.tc : Thread nD τ).loc main_arg1)))
        (Region0.scaled (m ((c.tc : Thread nD τ).loc main_arg0)) (m ((c.tc : Thread nD τ).loc main_arg2))
          (dcol (m ((c.tc : Thread nD τ).loc main_arg1)))) := by
  have h3 := v3_at4 m ρ c
  have h6 := v6_at4 m ρ c
  have h16 := v16_at4 m ρ c
  dsimp only [W5, hostOps1]
  generalize W4 m ρ c = V at h3 h6 h16 ⊢
  after_results
  rw [h3, h6, h16]
  rfl

/-! ## After the second kernel -/

theorem v3_at6 : W6 m ρ c (Proc.devRef .tc main_v3) = val_main_v3 (F := Ideal) (m ((c.tc : Thread nD τ).loc main_arg1)) :=
  (W6_of_ne m ρ c main_v3 (by decide)).trans (v3_at5 m ρ c)
theorem v6_at6 : W6 m ρ c (Proc.devRef .tc main_v6) = val_main_v6 (F := Ideal) (m ((c.tc : Thread nD τ).loc main_arg1)) :=
  (W6_of_ne m ρ c main_v6 (by decide)).trans (v6_at5 m ρ c)
theorem arg5_at6 : W6 m ρ c (Proc.devRef .tc main_arg5) = m ((c.tc : Thread nD τ).loc main_arg5) :=
  (W6_of_ne m ρ c main_arg5 (by decide)).trans (arg5_at5 m ρ c)
theorem v15_at6 : W6 m ρ c (Proc.devRef .tc main_v15) = dcol (m ((c.tc : Thread nD τ).loc main_arg1)) :=
  (W6_arr m ρ c 1).trans ((((dat1 (V5 m ρ) c).arrAt_in 1 rfl _).trans (A_eq1 (V5 m ρ) c 1)).trans (v15_at5 m ρ c))
theorem v28_at6 : W6 m ρ c (Proc.devRef .tc main_v28)
    = Region1.hidden
        (agg (val_main_v3 (F := Ideal) (m ((c.tc : Thread nD τ).loc main_arg1)))
          (val_main_v6 (F := Ideal) (m ((c.tc : Thread nD τ).loc main_arg1)))
          (Region0.scaled (m ((c.tc : Thread nD τ).loc main_arg0)) (m ((c.tc : Thread nD τ).loc main_arg2))
            (dcol (m ((c.tc : Thread nD τ).loc main_arg1)))))
        (dcol (m ((c.tc : Thread nD τ).loc main_arg1))) (rowOf (m ((c.tc : Thread nD τ).loc main_arg3)))
        (m ((c.tc : Thread nD τ).loc main_arg4)) := by
  refine (W6_arr m ρ c 4).trans ((Region1.final (V5 m ρ) c).trans ?_)
  show Region1.hidden (W5 m ρ c (Proc.devRef .tc main_v26)) (W5 m ρ c (Proc.devRef .tc main_v15))
    (W5 m ρ c (Proc.devRef .tc main_v27)) (W5 m ρ c (Proc.devRef .tc main_arg4)) = _
  rw [v26_at5, v15_at5, v27_at5, arg4_at5]

/-! ## The third kernel's entry, and its output -/

theorem v15_at7 : W7 m ρ c (Proc.devRef .tc main_v15) = dcol (m ((c.tc : Thread nD τ).loc main_arg1)) := by
  refine Eq.trans ?_ (v15_at6 m ρ c)
  dsimp only [W7, hostOps2]
  generalize W6 m ρ c = V
  after_results
theorem v39_at7 : W7 m ρ c (Proc.devRef .tc main_v39) = rowOf (m ((c.tc : Thread nD τ).loc main_arg5)) := by
  have h := arg5_at6 m ρ c
  dsimp only [W7, hostOps2]
  generalize W6 m ρ c = V at h ⊢
  after_results
  rw [h]
  rfl
set_option maxHeartbeats 2000000 in
theorem v38_at7 : W7 m ρ c (Proc.devRef .tc main_v38)
    = agg (val_main_v3 (F := Ideal) (m ((c.tc : Thread nD τ).loc main_arg1)))
        (val_main_v6 (F := Ideal) (m ((c.tc : Thread nD τ).loc main_arg1)))
        (Region1.hidden
          (agg (val_main_v3 (F := Ideal) (m ((c.tc : Thread nD τ).loc main_arg1)))
            (val_main_v6 (F := Ideal) (m ((c.tc : Thread nD τ).loc main_arg1)))
            (Region0.scaled (m ((c.tc : Thread nD τ).loc main_arg0)) (m ((c.tc : Thread nD τ).loc main_arg2))
              (dcol (m ((c.tc : Thread nD τ).loc main_arg1)))))
          (dcol (m ((c.tc : Thread nD τ).loc main_arg1))) (rowOf (m ((c.tc : Thread nD τ).loc main_arg3)))
          (m ((c.tc : Thread nD τ).loc main_arg4))) := by
  have h3 := v3_at6 m ρ c
  have h6 := v6_at6 m ρ c
  have h28 := v28_at6 m ρ c
  dsimp only [W7, hostOps2]
  generalize W6 m ρ c = V at h3 h6 h28 ⊢
  after_results
  rw [h3, h6, h28]
  rfl

/-- The result buffer after the run is the program's function of the six argument arrays. -/
theorem result : W8 m ρ c (Proc.devRef .tc main_v40)
    = kernelValue (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  have h1 := W8_arr m ρ c 3
  have h2 := Region2.final (V7 m ρ) c
  have h3 : Region2.out (V7 m ρ c main_v38) (V7 m ρ c main_v15) (V7 m ρ c main_v39)
      = Region2.out (W7 m ρ c (Proc.devRef .tc main_v38)) (W7 m ρ c (Proc.devRef .tc main_v15))
          (W7 m ρ c (Proc.devRef .tc main_v39)) := rfl
  rw [v38_at7, v15_at7, v39_at7] at h3
  exact h1.trans (h2.trans h3)

end Cert.KernelIdeal.HostValue

end
-- ==== Proof.LibIndexedRows.lean ====
/-
  Rows picked out of a matrix, and rows added into a matrix, through a column of index words.

  `x[idx]` for a matrix `x : [N, C]` (or a vector `x : [N]`) and a column of index words `idx : [E, 1]` lowers to a
  `gather` whose result row `e` is the row of `x` named by the word `idx[e, 0]`, read as a signed integer and clamped into
  `[0, N - 1]`. The accumulating `scatter` that `segment_sum` lowers to adds update row `e` into the row of the operand
  named by `idx[e, 0]`, read as a signed integer and NOT clamped: an update whose word is outside `[0, N)` is dropped.
  So an update that lands on row `j` has index word exactly `j`.
-/
import Idealize.ShloMosaic.PureOps.Ideal
import Idealize.ShloMosaic.Lib.ValueIdx

noncomputable section

namespace Cert.Lib

open Idealize.ShloMosaic Idealize.ShloMosaic.ValueIdx

section Gather
variable {α : Type}

/-- The dimension numbers of "row `idx[e, 0]` of an `[N, C]` matrix, for each `e`". -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a word names in an array of `N` rows: the word read signed, clamped into `[0, N - 1]`. -/
def clampRow (N : Nat) (hN : 0 < N) {w : Nat} (b : BitVec w) : Fin N := ⟨min b.toInt.toNat (N - 1), by omega⟩

theorem rows_coord0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 0 + (rowsDims N E C wf).batchCoord (ix2 e c) 0
      + (rowsDims N E C wf).offCoord (ix2 e c) 0 = min (idx (ix2 e 0)).toInt.toNat (N - 1) := by
  have hm : (0 : Fin 2) ∈ (rowsDims N E C wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (rowsDims N E C wf).siIdx (ix2 e c) ⟨List.idxOf (0 : Fin 2) (rowsDims N E C wf).startIndexMap,
      List.idxOf_lt_length_iff.2 hm⟩ = ix2 e 0 := by
    funext b; refine Fin.ext ?_
    match b with
    | ⟨0, _⟩ => rfl
    | ⟨1, _⟩ => rfl
  rw [hsi]
  rfl

theorem rows_coord1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 1 + (rowsDims N E C wf).batchCoord (ix2 e c) 1
      + (rowsDims N E C wf).offCoord (ix2 e c) 1 = c.val := by
  have hm : (1 : Fin 2) ∉ (rowsDims N E C wf).startIndexMap := by simp
  have hk : (1 : Fin 2) ∈ (rowsDims N E C wf).sKept := (GatherDims.mem_sKept _ _).mpr ⟨by simp, List.not_mem_nil⟩
  rw [GatherDims.batchCoord_eq_zero _ _ _ List.not_mem_nil]
  unfold GatherDims.start
  rw [dif_neg hm]
  unfold GatherDims.offCoord
  rw [dif_pos hk]
  simp only [Nat.zero_add, Nat.add_zero]
  rfl

/-- The gather at `(e, c)`: the matrix at row `idx[e, 0]` (signed, clamped) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e 0))) c) := by
  unfold Host.gather
  congr 1
  funext a
  refine Fin.ext ?_
  match a with
  | ⟨0, _⟩ => exact rows_coord0 wf idx e c
  | ⟨1, _⟩ => exact rows_coord1 wf idx e c

/-- The dimension numbers of "entry `idx[e, 0]` of an `[N]` vector, for each `e`". -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at `e`: the vector at entry `idx[e, 0]` (signed, clamped). -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e 0)))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  have hm : (0 : Fin 1) ∈ (entriesDims N E wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos hm]
  have hsi : (entriesDims N E wf).siIdx (ix1 e) ⟨List.idxOf (0 : Fin 1) (entriesDims N E wf).startIndexMap,
      List.idxOf_lt_length_iff.2 hm⟩ = ix2 e 0 := by
    funext b; refine Fin.ext ?_
    match b with
    | ⟨0, _⟩ => rfl
    | ⟨1, _⟩ => rfl
  rw [hsi]
  rfl

end Gather

section Scatter

/-- The dimension numbers of "add update row `e` into operand row `idx[e, 0]`". -/
abbrev addRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update that lands on row `j` has index word `j`: the word is read signed and is not clamped. -/
theorem addRows_hit {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e 0)).toInt = ((i 0).val : Int) := by
  unfold ScatterDims.resultIdx? at h
  split at h
  · rename_i hb
    have hi := congrFun (Option.some.inj h) 0
    have hv : ((addRowsDims N E C wf).start (ix2 e c) idx 0 + (addRowsDims N E C wf).window (ix2 e c) 0).toNat = (i 0).val :=
      congrArg Fin.val hi
    have hpos := (hb 0).1
    have hm : (0 : Fin 2) ∈ (addRowsDims N E C wf).scatterDimsToOperandDims := by simp
    have hw : (addRowsDims N E C wf).window (ix2 e c) 0 = 0 := by
      unfold ScatterDims.window
      rw [dif_neg]
      simp [ScatterDims.sKept, Shape.kept]
    have hs : (addRowsDims N E C wf).start (ix2 e c) idx 0 = (idx (ix2 e 0)).toInt := by
      unfold ScatterDims.start
      rw [dif_pos hm]
      have hsi : (addRowsDims N E C wf).siIdx (ix2 e c) ⟨List.idxOf (0 : Fin 2) (addRowsDims N E C wf).scatterDimsToOperandDims,
          List.idxOf_lt_length_iff.2 hm⟩ = ix2 e 0 := by
        funext b; refine Fin.ext ?_
        match b with
        | ⟨0, _⟩ => rfl
        | ⟨1, _⟩ => rfl
      rw [hsi]
    rw [hw, hs] at hv hpos
    simp only [Nat.cast_zero, add_zero] at hv hpos
    omega
  · exact absurd h (by simp)

end Scatter

end Cert.Lib

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.Algebra.lean ====
/-
  The two arrangements of a graph convolution's normalisation, on the extended reals.

  A symmetric normalisation weighs the message along an edge from `s` to `j` by `dis s * dis j`, where `dis` is
  a nonnegative real per node. Summing the weighted messages `(dis s * dis j) * h s` over the edges that end in `j` is
  the same as scaling every node's row first (`h s * dis s`), summing those over the edges that end in `j`, and
  scaling the sum by `dis j`: the factor `dis j` is common to all the edges that end in `j`, it is a nonnegative
  real, and multiplication by a nonnegative real distributes over a finite sum of extended reals whatever the
  summands are. Neither commutativity nor associativity of the product needs finiteness, so the messages may be
  any extended reals.

  The per-node factor is `1 / sqrt(deg)` where `deg` counts edges, or `0` for a node with none: a nonnegative real.
-/
import proofs.«118067_j46694884442280_2_alg».proof.Proof.LibERealSum
import Idealize.ShloMosaic.PureOps.Ideal

noncomputable section

namespace Cert.Gcn

open scoped BigOperators
open Idealize.ShloMosaic

/-- Scaling each row, adding up, and scaling the sum by a nonnegative real `d` is adding up the rows weighed by
    the product of the two factors, when the second factor is `d` on every summand. -/
theorem sum_scaled {ι : Type*} (s : Finset ι) (h a b : ι → EReal) {d : ℝ} (hd : 0 ≤ d)
    (hb : ∀ u ∈ s, b u = (d : EReal)) :
    (0 + ∑ u ∈ s, h u * a u) * (d : EReal) = 0 + ∑ u ∈ s, (a u * b u) * h u := by
  rw [zero_add, zero_add, Cert.Lib.sum_mul_coe s _ hd]
  refine Finset.sum_congr rfl fun u hu => ?_
  rw [hb u hu, mul_comm (h u) (a u), mul_assoc, mul_comm (h u) _, ← mul_assoc]

/-- A sum of ones over a finite set is the number of its elements, a real. -/
theorem sum_ones {ι : Type*} (s : Finset ι) : (0 : EReal) + ∑ _u ∈ s, (1 : EReal) = ((s.card : ℝ) : EReal) := by
  rw [zero_add]
  have h := Cert.Lib.sum_coe s (fun _ => (1 : ℝ))
  simp only [EReal.coe_one] at h
  rw [h]
  simp

/-- An accumulation of ones from zero is a natural number, whatever the indices are: the number of updates that land. -/
theorem scatter_ones_nat {s si su : Shape} (d : ScatterDims s si su) {w : ℕ} (x : s.Idx → EReal) (idx : IVec si w)
    (upd : su.Idx → EReal) (i : s.Idx) (hx : x i = 0) (hu : ∀ j, upd j = 1) :
    ∃ n : ℕ, Ideal.hostScatterAdd d x idx upd i = ((n : ℝ) : EReal) := by
  unfold Ideal.hostScatterAdd
  rw [hx]
  simp only [hu]
  exact ⟨_, sum_ones _⟩

/-- The same for the host's accumulating scatter at the ideal values. -/
theorem host_scatter_ones_nat {s si su : Shape} {φ : FTy} (d : ScatterDims s si su) {w : ℕ} (x : FVec Ideal s φ)
    (idx : IVec si w) (upd : FVec Ideal su φ) (i : s.Idx) (hx : x i = 0) (hu : ∀ j, upd j = 1) :
    ∃ n : ℕ, Host.scatterAdd (F := Ideal) d x idx upd i = ((n : ℝ) : EReal) :=
  scatter_ones_nat d x idx upd i hx hu

/-- The reciprocal square root of a positive count, or zero for a zero count, is a nonnegative real. -/
theorem invSqrt_count (n : ℕ) :
    ∃ r : ℝ, 0 ≤ r ∧
      Scalar.select (Ideal.cmp .ogt ((n : ℝ) : EReal) 0) (Ideal.rsqrt ((n : ℝ) : EReal)) 0 = (r : EReal) := by
  by_cases hn : n = 0
  · subst hn
    refine ⟨0, le_refl _, ?_⟩
    have : Ideal.cmp .ogt (((0 : ℕ) : ℝ) : EReal) 0 = 0#1 := by
      simp [Ideal.cmp]
    rw [this]
    simp [Scalar.select]
  · have hpos : (0 : ℝ) < (n : ℝ) := by exact_mod_cast Nat.pos_of_ne_zero hn
    refine ⟨(Real.sqrt (n : ℝ))⁻¹, inv_nonneg.mpr (Real.sqrt_nonneg _), ?_⟩
    have hc : Ideal.cmp .ogt ((n : ℝ) : EReal) 0 = 1#1 := by
      have : (0 : EReal) < ((n : ℝ) : EReal) := by exact_mod_cast hpos
      have hn' : 0 < n := Nat.pos_of_ne_zero hn
      simp [Ideal.cmp, hn']
    rw [hc]
    have hr : Ideal.rsqrt ((n : ℝ) : EReal) = (((Real.sqrt (n : ℝ))⁻¹ : ℝ) : EReal) := by
      show (if (n : ℝ) < 0 then (⊥ : EReal) else if (n : ℝ) = 0 then ⊤ else (((Real.sqrt (n : ℝ))⁻¹ : ℝ) : EReal)) = _
      rw [if_neg (not_lt.mpr hpos.le), if_neg (ne_of_gt hpos)]
    rw [hr]
    simp [Scalar.select]

end Cert.Gcn

end
-- ==== Proof.Layer.lean ====
/-
  One aggregation step of a graph convolution, in its two arrangements.

  Nodes are rows `0 … N - 1`; edge `e` has a source word and a destination word. The aggregation gathers, for each edge,
  the source's row of a matrix `H`, and adds it into the destination's row. The gather reads the source word signed and
  clamped into `[0, N - 1]`; the accumulation reads the destination word signed and NOT clamped, and drops the edge when
  the word is outside `[0, N)`. So an edge that is added into row `j` has destination word `j` exactly, and the
  "normalised" destination (a negative word moved up by `N`, then clamped by a gather) of such an edge is `j` again.

  With a nonnegative real factor `dis` per node, weighing edge `e`'s message by `dis (source) * dis (destination)` before
  adding is therefore the same as scaling `H`'s rows by `dis` first, adding, and scaling row `j` of the sum by `dis j`.
-/
import proofs.«118067_j46694884442280_2_alg».proof.Proof.LibIndexedRows
import proofs.«118067_j46694884442280_2_alg».proof.Proof.Algebra

noncomputable section

namespace Cert.Gcn

open Idealize.ShloMosaic Idealize.ShloMosaic.ValueIdx Cert.Lib
open scoped BigOperators

variable {N E C : ℕ}

/-- A word that is a row number reads back, signed and clamped, as that row. -/
theorem clampRow_of_toInt {w : ℕ} (hN : 0 < N) (b : BitVec w) (j : Fin N) (h : b.toInt = (j.val : Int)) :
    clampRow N hN b = j := by
  apply Fin.ext
  show min b.toInt.toNat (N - 1) = j.val
  have := j.isLt
  rw [h]
  simp only [Int.toNat_natCast]
  omega

theorem aggregate_scaled (hN : 0 < N)
    (wfS : ScatterDims.WF ⟨2, ![N, C]⟩ ⟨2, ![E, 1]⟩ ⟨2, ![E, C]⟩ [1] [0] [0] 1)
    (wfR : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (dis : (⟨1, ![N]⟩ : Shape).Idx → EReal)
    (hdis : ∀ r : Fin N, ∃ d : ℝ, 0 ≤ d ∧ dis (ix1 r) = (d : EReal))
    (dst : (⟨1, ![E]⟩ : Shape).Idx → BitVec 32) (iS iD iDn : IVec ⟨2, ![E, 1]⟩ 32)
    (hD : ∀ e : Fin E, iD (ix2 e (0 : Fin 1)) = dst (ix1 e))
    (hDn : ∀ e : Fin E, 0 ≤ (dst (ix1 e)).toInt → iDn (ix2 e (0 : Fin 1)) = dst (ix1 e))
    (Z : (⟨2, ![N, C]⟩ : Shape).Idx → EReal) (hZ : ∀ i, Z i = 0)
    (H H' : (⟨2, ![N, C]⟩ : Shape).Idx → EReal)
    (hH' : ∀ (r : Fin N) (c : Fin C), H' (ix2 r c) = H (ix2 r c) * dis (ix1 r)) (j : Fin N) (c : Fin C) :
    Ideal.hostScatterAdd (addRowsDims N E C wfS) Z iD (Host.gather (rowsDims N E C wfR) H' iS) (ix2 j c) * dis (ix1 j)
      = Ideal.hostScatterAdd (addRowsDims N E C wfS) Z iD
          (fun u => (Host.gather (entriesDims N E wfV) dis iS (ix1 ⟨(u 0).val, idx2_lt0 u⟩)
              * Host.gather (entriesDims N E wfV) dis iDn (ix1 ⟨(u 0).val, idx2_lt0 u⟩))
            * Host.gather (rowsDims N E C wfR) H iS u) (ix2 j c) := by
  obtain ⟨d, hd0, hd⟩ := hdis j
  unfold Ideal.hostScatterAdd
  rw [hZ, hd]
  have hsum : ∀ s : Finset (⟨2, ![E, C]⟩ : Shape).Idx,
      ∑ u ∈ s, Host.gather (rowsDims N E C wfR) H' iS u
        = ∑ u ∈ s, Host.gather (rowsDims N E C wfR) H iS u
            * Host.gather (entriesDims N E wfV) dis iS (ix1 ⟨(u 0).val, idx2_lt0 u⟩) := fun s =>
    Finset.sum_congr rfl fun u _ => by
      obtain ⟨e, c', rfl⟩ : ∃ (e : Fin E) (c' : Fin C), u = ix2 e c' := ⟨u 0, u 1, eq_ix2 u⟩
      rw [gather_rows_apply hN, gather_rows_apply hN, hH']
      exact congrArg (_ * ·) (gather_entries_apply hN wfV dis iS e).symm
  rw [hsum]
  refine sum_scaled _ _ _ _ hd0 fun u hu => ?_
  obtain ⟨e, c', rfl⟩ : ∃ (e : Fin E) (c' : Fin C), u = ix2 e c' := ⟨u 0, u 1, eq_ix2 u⟩
  have hit := addRows_hit wfS iD e c' (ix2 j c) (Finset.mem_filter.mp hu).2
  rw [hD e] at hit
  have hj : (dst (ix1 e)).toInt = (j.val : Int) := hit
  refine (gather_entries_apply hN wfV dis iDn e).trans ?_
  rw [hDn e (by rw [hj]; exact Int.natCast_nonneg _), clampRow_of_toInt hN _ j hj, hd]

end Cert.Gcn

end
-- ==== Proof.RefFacts.lean ====
/-
  The reference's edge weights and its aggregation, read through the edge words.

  The reference weighs the message along edge `e` by the product of two gathered per-node factors, one at the edge's
  normalised source word and one at its normalised destination word, and adds the weighted messages into the rows named
  by the raw destination words. Three facts about its stages are proved here: the per-node factor is a nonnegative
  real (the reciprocal square root of a count of edges, or zero); on an edge whose raw destination word is not
  negative the normalised destination word is the raw one; and, from these, the weighted aggregation of a matrix `H` is
  the plain aggregation of `H` with its rows scaled by the factor, scaled again row by row (the law of
  `Cert.Gcn.aggregate_scaled`, instantiated at the reference's stages of either layer).
-/
import proofs.«118067_j46694884442280_2_alg».proof.Proof.RefReadP
import proofs.«118067_j46694884442280_2_alg».proof.Proof.Layer
import Idealize.ShloMosaic.Lib.IdealHost

set_option maxRecDepth 16384

noncomputable section

namespace Cert.ReferenceIdeal.RefFacts

open Cert.ReferenceIdeal Cert.ReferenceIdeal.Facts₀ Cert.ReferenceIdeal.Read
open Idealize.ShloMosaic Idealize.ShloMosaic.ValueIdx Cert.Lib
open scoped BigOperators

variable (x1 : S2x3200000.Idx → BitVec 32)

/-- A word that is not negative is not below zero in the signed order. -/
theorem cmpi_slt_zero_of_nonneg (b : BitVec 32) (h : 0 ≤ b.toInt) : IntOp.cmpi .slt b 0#32 = 0#1 := by
  have hs : b.slt 0#32 = false := by
    rw [BitVec.slt]
    simp only [BitVec.toInt_zero, decide_eq_false_iff_not, not_lt]
    exact h
  show BitVec.ofBool (b.slt 0#32) = 0#1
  rw [hs]
  rfl

/-- The number of edges ending in a node: the accumulation of ones is a natural number. -/
theorem deg_nat (r : Fin 100000) : ∃ n : ℕ, val_main_v10 (F := Ideal) x1 (ix1 r) = ((n : ℝ) : EReal) := by
  have hx : val_main_v8 (F := Ideal) (ix1 r) = 0 := by
    rw [val_main_v8_apply, val_main_cst_0_apply]
    exact Ideal.ofBits_zero_f32
  have hu : ∀ j, val_main_v7 (F := Ideal) j = 1 := fun j => by
    rw [val_main_v7_apply, val_main_cst_apply]
    exact Ideal.ofBits_one_f32
  unfold val_main_v10
  exact Cert.Gcn.host_scatter_ones_nat scatter_S100000_S3300000x1_S3300000_n_0_0_1 (val_main_v8 (F := Ideal))
    (val_main_v9 (F := Ideal) x1) (val_main_v7 (F := Ideal)) (ix1 r) hx hu

/-- The per-node factor is a nonnegative real. -/
theorem dis_real (r : Fin 100000) : ∃ d : ℝ, 0 ≤ d ∧ val_main_v14 (F := Ideal) x1 (ix1 r) = (d : EReal) := by
  obtain ⟨n, hn⟩ := deg_nat x1 r
  obtain ⟨d, hd0, hd⟩ := Cert.Gcn.invSqrt_count n
  refine ⟨d, hd0, ?_⟩
  rw [val_main_v14_apply, val_main_v12_apply, val_main_v13_apply, val_main_call0_v1_apply, val_main_call0_v0_apply,
    val_main_cst_2_apply, val_main_v11_apply, val_main_cst_1_apply, hn]
  show Scalar.select (Ideal.cmp .ogt ((n : ℝ) : EReal) (Ideal.ofBits .f32 0x00000000#32)) (Ideal.rsqrt ((n : ℝ) : EReal))
    (Ideal.ofBits .f32 0x00000000#32) = _
  rw [Ideal.ofBits_zero_f32]
  exact hd

/-- The law of the aggregation at any stages that read the edge words as the reference's do. -/
theorem layer_at (Z : S100000x64.Idx → EReal) (iS iD iDn : S3300000x1.Idx → BitVec 32) (Wt : S3300000x64.Idx → EReal)
    (hZ : ∀ i, Z i = 0)
    (hD : ∀ e : Fin 3300000, iD (ix2 e (0 : Fin 1)) = val_main_v6 (F := Ideal) x1 (ix1 e))
    (hDn : ∀ e : Fin 3300000, 0 ≤ (val_main_v6 (F := Ideal) x1 (ix1 e)).toInt
      → iDn (ix2 e (0 : Fin 1)) = val_main_v6 (F := Ideal) x1 (ix1 e))
    (hW : ∀ u : S3300000x64.Idx, Wt u
      = Host.gather (entriesDims 100000 3300000 gather_S100000_S3300000x1_S3300000_n_0_n_n_0_1_1_wf)
            (val_main_v14 (F := Ideal) x1) iS (ix1 ⟨(u 0).val, idx2_lt0 u⟩)
          * Host.gather (entriesDims 100000 3300000 gather_S100000_S3300000x1_S3300000_n_0_n_n_0_1_1_wf)
            (val_main_v14 (F := Ideal) x1) iDn (ix1 ⟨(u 0).val, idx2_lt0 u⟩))
    (H H' : S100000x64.Idx → EReal)
    (hH' : ∀ (r : Fin 100000) (c : Fin 64), H' (ix2 r c) = H (ix2 r c) * val_main_v14 (F := Ideal) x1 (ix1 r))
    (j : Fin 100000) (c : Fin 64) :
    Host.scatterAdd (F := Ideal) (φ := .f32) scatter_S100000x64_S3300000x1_S3300000x64_1_0_0_1 Z iD
        (Host.gather gather_S100000x64_S3300000x1_S3300000x64_1_0_n_n_0_1_164 H' iS) (ix2 j c)
      * val_main_v14 (F := Ideal) x1 (ix1 j)
    = Host.scatterAdd (F := Ideal) (φ := .f32) scatter_S100000x64_S3300000x1_S3300000x64_1_0_0_1 Z iD
        (mulf (F := Ideal) (φ := .f32) Wt (Host.gather gather_S100000x64_S3300000x1_S3300000x64_1_0_n_n_0_1_164 H iS)) (ix2 j c) := by
  have h := Cert.Gcn.aggregate_scaled (N := 100000) (E := 3300000) (C := 64) (by omega)
    scatter_S100000x64_S3300000x1_S3300000x64_1_0_0_1_wf gather_S100000x64_S3300000x1_S3300000x64_1_0_n_n_0_1_164_wf
    gather_S100000_S3300000x1_S3300000_n_0_n_n_0_1_1_wf
    (val_main_v14 (F := Ideal) x1) (dis_real x1) (val_main_v6 (F := Ideal) x1) iS iD iDn hD hDn Z hZ H H' hH' j c
  refine Eq.trans ?_ (h.trans ?_)
  · rfl
  · refine congrArg (fun f => Ideal.hostScatterAdd _ _ _ f (ix2 j c)) (funext fun u => ?_)
    rw [← hW u]
    rfl

/-! ## The second layer's stages -/

theorem zeros2 (i : S100000x64.Idx) : val_main_v74 (F := Ideal) i = 0 := by
  rw [val_main_v74_apply, val_main_cst_15_apply]
  exact Ideal.ofBits_zero_f32

theorem dstRaw2 (e : Fin 3300000) :
    val_main_v75 (F := Ideal) x1 (ix2 e (0 : Fin 1)) = val_main_v6 (F := Ideal) x1 (ix1 e) := by
  rw [val_main_v75_apply]
  exact congrArg _ (funext fun a => Fin.ext (by match a with | ⟨0, _⟩ => rfl))

theorem dstNorm2 (e : Fin 3300000) (h : 0 ≤ (val_main_v6 (F := Ideal) x1 (ix1 e)).toInt) :
    val_main_v61 (F := Ideal) x1 (ix2 e (0 : Fin 1)) = val_main_v6 (F := Ideal) x1 (ix1 e) := by
  have hi : idx_main_v61 (ix2 e (0 : Fin 1)) = ix1 e := funext fun a => Fin.ext (by match a with | ⟨0, _⟩ => rfl)
  rw [val_main_v61_apply, hi, val_main_v60_apply, val_main_v57_apply, val_main_v56_apply, val_main_c_11_apply,
    cmpi_slt_zero_of_nonneg _ h]
  exact select_zero _ _

theorem weights2 (u : S3300000x64.Idx) : val_main_v72 (F := Ideal) x1 u
    = Host.gather (entriesDims 100000 3300000 gather_S100000_S3300000x1_S3300000_n_0_n_n_0_1_1_wf)
          (val_main_v14 (F := Ideal) x1) (val_main_v70 (F := Ideal) x1) (ix1 ⟨(u 0).val, idx2_lt0 u⟩)
        * Host.gather (entriesDims 100000 3300000 gather_S100000_S3300000x1_S3300000_n_0_n_n_0_1_1_wf)
          (val_main_v14 (F := Ideal) x1) (val_main_v61 (F := Ideal) x1) (ix1 ⟨(u 0).val, idx2_lt0 u⟩) := by
  have hi : idx_main_v64 (idx_main_v72 u) = ix1 ⟨(u 0).val, idx2_lt0 u⟩ :=
    funext fun a => Fin.ext (by match a with | ⟨0, _⟩ => rfl)
  rw [val_main_v72_apply, val_main_v64_apply, val_main_v63_apply, hi]
  rfl

/-- The second layer's weighted aggregation of `H` is the plain aggregation of `H` with scaled rows, scaled again. -/
theorem layer2 (H H' : S100000x64.Idx → EReal)
    (hH' : ∀ (r : Fin 100000) (c : Fin 64), H' (ix2 r c) = H (ix2 r c) * val_main_v14 (F := Ideal) x1 (ix1 r))
    (j : Fin 100000) (c : Fin 64) :
    Host.scatterAdd (F := Ideal) (φ := .f32) scatter_S100000x64_S3300000x1_S3300000x64_1_0_0_1 (val_main_v74 (F := Ideal))
        (val_main_v75 (F := Ideal) x1)
        (Host.gather gather_S100000x64_S3300000x1_S3300000x64_1_0_n_n_0_1_164 H' (val_main_v70 (F := Ideal) x1)) (ix2 j c)
      * val_main_v14 (F := Ideal) x1 (ix1 j)
    = Host.scatterAdd (F := Ideal) (φ := .f32) scatter_S100000x64_S3300000x1_S3300000x64_1_0_0_1 (val_main_v74 (F := Ideal))
        (val_main_v75 (F := Ideal) x1)
        (mulf (F := Ideal) (φ := .f32) (val_main_v72 (F := Ideal) x1)
          (Host.gather gather_S100000x64_S3300000x1_S3300000x64_1_0_n_n_0_1_164 H (val_main_v70 (F := Ideal) x1))) (ix2 j c) :=
  layer_at x1 _ _ _ _ _ (zeros2) (dstRaw2 x1) (dstNorm2 x1) (weights2 x1) H H' hH' j c

/-! ## The first layer's stages -/

theorem zeros1 (i : S100000x64.Idx) : val_main_v41 (F := Ideal) i = 0 := by
  rw [val_main_v41_apply, val_main_cst_8_apply]
  exact Ideal.ofBits_zero_f32

theorem dstRaw1 (e : Fin 3300000) :
    val_main_v42 (F := Ideal) x1 (ix2 e (0 : Fin 1)) = val_main_v6 (F := Ideal) x1 (ix1 e) := by
  rw [val_main_v42_apply]
  exact congrArg _ (funext fun a => Fin.ext (by match a with | ⟨0, _⟩ => rfl))

theorem dstNorm1 (e : Fin 3300000) (h : 0 ≤ (val_main_v6 (F := Ideal) x1 (ix1 e)).toInt) :
    val_main_v28 (F := Ideal) x1 (ix2 e (0 : Fin 1)) = val_main_v6 (F := Ideal) x1 (ix1 e) := by
  have hi : idx_main_v28 (ix2 e (0 : Fin 1)) = ix1 e := funext fun a => Fin.ext (by match a with | ⟨0, _⟩ => rfl)
  rw [val_main_v28_apply, hi, val_main_v27_apply, val_main_v24_apply, val_main_v23_apply, val_main_c_4_apply,
    cmpi_slt_zero_of_nonneg _ h]
  exact select_zero _ _

theorem weights1 (u : S3300000x64.Idx) : val_main_v39 (F := Ideal) x1 u
    = Host.gather (entriesDims 100000 3300000 gather_S100000_S3300000x1_S3300000_n_0_n_n_0_1_1_wf)
          (val_main_v14 (F := Ideal) x1) (val_main_v37 (F := Ideal) x1) (ix1 ⟨(u 0).val, idx2_lt0 u⟩)
        * Host.gather (entriesDims 100000 3300000 gather_S100000_S3300000x1_S3300000_n_0_n_n_0_1_1_wf)
          (val_main_v14 (F := Ideal) x1) (val_main_v28 (F := Ideal) x1) (ix1 ⟨(u 0).val, idx2_lt0 u⟩) := by
  have hi : idx_main_v31 (idx_main_v39 u) = ix1 ⟨(u 0).val, idx2_lt0 u⟩ :=
    funext fun a => Fin.ext (by match a with | ⟨0, _⟩ => rfl)
  rw [val_main_v39_apply, val_main_v31_apply, val_main_v30_apply, hi]
  rfl

/-- The first layer's weighted aggregation of `H` is the plain aggregation of `H` with scaled rows, scaled again. -/
theorem layer1 (H H' : S100000x64.Idx → EReal)
    (hH' : ∀ (r : Fin 100000) (c : Fin 64), H' (ix2 r c) = H (ix2 r c) * val_main_v14 (F := Ideal) x1 (ix1 r))
    (j : Fin 100000) (c : Fin 64) :
    Host.scatterAdd (F := Ideal) (φ := .f32) scatter_S100000x64_S3300000x1_S3300000x64_1_0_0_1 (val_main_v41 (F := Ideal))
        (val_main_v42 (F := Ideal) x1)
        (Host.gather gather_S100000x64_S3300000x1_S3300000x64_1_0_n_n_0_1_164 H' (val_main_v37 (F := Ideal) x1)) (ix2 j c)
      * val_main_v14 (F := Ideal) x1 (ix1 j)
    = Host.scatterAdd (F := Ideal) (φ := .f32) scatter_S100000x64_S3300000x1_S3300000x64_1_0_0_1 (val_main_v41 (F := Ideal))
        (val_main_v42 (F := Ideal) x1)
        (mulf (F := Ideal) (φ := .f32) (val_main_v39 (F := Ideal) x1)
          (Host.gather gather_S100000x64_S3300000x1_S3300000x64_1_0_n_n_0_1_164 H (val_main_v37 (F := Ideal) x1))) (ix2 j c) :=
  layer_at x1 _ _ _ _ _ (zeros1) (dstRaw1 x1) (dstNorm1 x1) (weights1 x1) H H' hH' j c

end Cert.ReferenceIdeal.RefFacts

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«118067_j46694884442280_2_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibColumnCast.lean ====
/- A general layout fact: a vector stood up as a one-column matrix, read at an index. -/
import Idealize.ShloMosaic.Lib.Pipeline.Value
import Idealize.ShloMosaic.Lib.ValueIdx

namespace Cert.Lib

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib
-- ==== Proof.Bridge.lean ====
/-
  The kernel's function of the arguments is the reference's.

  Layer by layer. The first kernel leaves `(x W1) (i, c) * dis i`; aggregating that along the edges and scaling row `j` by
  `dis j` is the reference's weighted aggregation of `x W1` (the law of the aggregation: the per-node factors are
  nonnegative reals). Adding the bias, taking the maximum with zero and multiplying with `W2` is then the same on
  both sides, so the second kernel leaves the reference's second projection with its rows scaled by `dis`; the second
  aggregation, scaled, is again the reference's, and adding the second bias gives the result entry by entry.
-/
import proofs.«118067_j46694884442280_2_alg».proof.Proof.HostValue
import proofs.«118067_j46694884442280_2_alg».proof.Proof.RefFacts
import proofs.«118067_j46694884442280_2_alg».proof.Proof.LibHostDot2
import proofs.«118067_j46694884442280_2_alg».proof.Proof.LibColumnCast
import Idealize.ShloMosaic.Lib.ValueLayout

set_option maxRecDepth 16384

noncomputable section

namespace Cert.Bridge

open Cert.KernelIdeal Cert.KernelIdeal.HostValue Cert.ReferenceIdeal.Read Cert.ReferenceIdeal.RefFacts
open Idealize.ShloMosaic Idealize.ShloMosaic.ValueIdx
open scoped BigOperators

variable (x0 : S100000x256.Idx → EReal) (x1 : S2x3200000.Idx → BitVec 32) (x2 : S256x64.Idx → EReal)
  (x3 : S64.Idx → EReal) (x4 : S64x64.Idx → EReal) (x5 : S64.Idx → EReal)

/-- The column of factors at row `r` is node `r`'s factor. -/
theorem dcol_apply (r : Fin 100000) : dcol x1 (ix2 r (0 : Fin 1)) = val_main_v14 (F := Ideal) x1 (ix1 r) := by
  unfold dcol
  exact Cert.Lib.shapeCast_a_a1_apply _ _ r 0

/-- A bias row at column `k` is the bias at `k`. -/
theorem rowOf_apply (b : S64.Idx → EReal) (k : Fin 64) : rowOf b (ix2 (0 : Fin 1) k) = b (ix1 k) := by
  unfold rowOf
  exact shapeCast_a_1a_apply _ _ 0 k

/-- The first kernel's output is the first projection with its rows scaled. -/
theorem proj1 (r : Fin 100000) (c : Fin 64) :
    Region0.scaled x0 x2 (dcol x1) (ix2 r c)
      = val_main_v15 (F := Ideal) x0 x2 (ix2 r c) * val_main_v14 (F := Ideal) x1 (ix1 r) := by
  rw [Region0.scaled_apply]
  unfold Region0.scaledAt
  rw [dcol_apply]
  refine congrArg (fun a : EReal => a * val_main_v14 (F := Ideal) x1 (ix1 r)) ?_
  have hd : val_main_v15 (F := Ideal) x0 x2 (ix2 r c) = ∑ k : Fin 256, x0 (ix2 r k) * x2 (ix2 k c) :=
    Cert.Lib.hostDot2_apply (φ₁ := .f32) (φ₂ := .f32)
      Cert.ReferenceIdeal.Facts₀.dot_S100000x256_S256x64_S100000x64_1_0_0_1_n_n_wf x0 x2 r c
  exact hd.symm

/-- The first aggregation, scaled, is the reference's weighted aggregation of the first projection. -/
theorem agg1 (r : Fin 100000) (k : Fin 64) :
    agg (val_main_v3 (F := Ideal) x1) (val_main_v6 (F := Ideal) x1) (Region0.scaled x0 x2 (dcol x1)) (ix2 r k)
      * val_main_v14 (F := Ideal) x1 (ix1 r)
    = val_main_v43 (F := Ideal) x0 x1 x2 (ix2 r k) :=
  layer1 x1 (val_main_v15 (F := Ideal) x0 x2) (Region0.scaled x0 x2 (dcol x1)) (proj1 x0 x1 x2) r k

/-- The second kernel's output is the second projection with its rows scaled. -/
theorem proj2 (r : Fin 100000) (c : Fin 64) :
    Region1.hidden
        (agg (val_main_v3 (F := Ideal) x1) (val_main_v6 (F := Ideal) x1) (Region0.scaled x0 x2 (dcol x1)))
        (dcol x1) (rowOf x3) x4 (ix2 r c)
      = val_main_v48 (F := Ideal) x0 x1 x2 x3 x4 (ix2 r c) * val_main_v14 (F := Ideal) x1 (ix1 r) := by
  rw [Region1.hidden_apply]
  unfold Region1.hiddenAt
  rw [dcol_apply]
  refine congrArg (fun a : EReal => a * val_main_v14 (F := Ideal) x1 (ix1 r)) ?_
  have hd : val_main_v48 (F := Ideal) x0 x1 x2 x3 x4 (ix2 r c)
      = ∑ k : Fin 64, val_main_v47 (F := Ideal) x0 x1 x2 x3 (ix2 r k) * x4 (ix2 k c) :=
    Cert.Lib.hostDot2_apply (φ₁ := .f32) (φ₂ := .f32)
      Cert.ReferenceIdeal.Facts₀.dot_S100000x64_S64x64_S100000x64_1_0_0_1_n_n_wf
      (val_main_v47 (F := Ideal) x0 x1 x2 x3) x4 r c
  refine Eq.trans ?_ hd.symm
  refine Finset.sum_congr rfl fun k _ => congrArg (fun a : EReal => a * x4 (ix2 k c)) ?_
  have hi : idx_main_v44 (idx_main_v45 (ix2 r k)) = ix1 k :=
    funext fun a => Fin.ext (by match a with | ⟨0, _⟩ => rfl)
  rw [val_main_v47_apply, val_main_v46_apply, val_main_call1_v0_apply, val_main_call1_cst_apply, val_main_v45_apply,
    val_main_v44_apply, hi, agg1, rowOf_apply]
  rfl

/-- The second aggregation, scaled, is the reference's weighted aggregation of the second projection. -/
theorem agg2 (j : Fin 100000) (c : Fin 64) :
    agg (val_main_v3 (F := Ideal) x1) (val_main_v6 (F := Ideal) x1)
        (Region1.hidden
          (agg (val_main_v3 (F := Ideal) x1) (val_main_v6 (F := Ideal) x1) (Region0.scaled x0 x2 (dcol x1)))
          (dcol x1) (rowOf x3) x4) (ix2 j c)
      * val_main_v14 (F := Ideal) x1 (ix1 j)
    = val_main_v76 (F := Ideal) x0 x1 x2 x3 x4 (ix2 j c) :=
  layer2 x1 (val_main_v48 (F := Ideal) x0 x1 x2 x3 x4) _ (proj2 x0 x1 x2 x3 x4) j c

/-- The kernel's function of the six arguments is the reference's last stage. -/
theorem kernelValue_eq : kernelValue x0 x1 x2 x3 x4 x5 = val_main_v79 (F := Ideal) x0 x1 x2 x3 x4 x5 := by
  funext i
  obtain ⟨j, c, rfl⟩ : ∃ (j : Fin 100000) (c : Fin 64), i = ix2 j c := ⟨i 0, i 1, eq_ix2 i⟩
  unfold kernelValue
  have hi : idx_main_v77 (idx_main_v78 (ix2 j c)) = ix1 c :=
    funext fun a => Fin.ext (by match a with | ⟨0, _⟩ => rfl)
  rw [Region2.out_apply]
  unfold Region2.outAt
  rw [dcol_apply, agg2, rowOf_apply, val_main_v79_apply, val_main_v78_apply, val_main_v77_apply, hi]
  rfl

end Cert.Bridge

end
-- ==== Proof.lean ====
/-
  A two-layer graph convolution in three kernels against its plain reference: the proof of `Cert.Claim`.

  The kernel program computes the edge words and the per-node factors `dis` on the host, then per layer scales the rows of
  a projection by `dis` inside a kernel, aggregates those rows along the edges on the host, and scales the aggregated rows
  by `dis` again inside the next kernel (where the bias, the maximum with zero and the next projection follow). The
  reference weighs every edge's message by `dis (source) * dis (destination)` and aggregates the weighted messages. At
  the ideal values the two agree entry by entry: `dis` is a nonnegative real, the factor `dis j` is common to the edges
  ending in `j`, and multiplication by a nonnegative real distributes over a finite sum of extended reals
  (Proof/Layer.lean, Proof/Bridge.lean). No input needs to be finite for this, so the precondition is never opened.

  The three frames are the generated runs (the reference's run with its result dropped). The ideal pass rewrote nothing,
  so the kernel's idealization is its own text. The kernel program's run with its result named is Proof/KernelRun.lean;
  the result as a function of the six arguments is Proof/HostValue.lean over the three kernels' output arrays
  (Proof/Region0Value.lean, Region1Value.lean, Region2Value.lean).
-/
import proofs.«118067_j46694884442280_2_alg».proof.Defs
import proofs.«118067_j46694884442280_2_alg».proof.Proof.Gen.Kernel
import proofs.«118067_j46694884442280_2_alg».proof.Proof.Gen.Kernel.Frame
import proofs.«118067_j46694884442280_2_alg».proof.Proof.Gen.KernelIdeal
import proofs.«118067_j46694884442280_2_alg».proof.Proof.Gen.KernelIdeal.Frame
import proofs.«118067_j46694884442280_2_alg».proof.Proof.Gen.ReferenceIdeal
import proofs.«118067_j46694884442280_2_alg».proof.Proof.Gen.Pre_finite_inputs
import proofs.«118067_j46694884442280_2_alg».proof.Proof.RefRunP
import proofs.«118067_j46694884442280_2_alg».proof.Proof.RefReadP
import proofs.«118067_j46694884442280_2_alg».proof.Proof.KernelRun
import proofs.«118067_j46694884442280_2_alg».proof.Proof.HostValue
import proofs.«118067_j46694884442280_2_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the kernel's function of the six arguments in their result buffers: the kernel program by its
    run and the fold of its segments, the reference by its run and the entry-by-entry equality of the two functions. -/
theorem algebraic : Cert.algebraic_KernelIdeal_ReferenceIdeal := by
  intro m ρ m' ρ' _ hagree
  refine ⟨fun c => Cert.KernelIdeal.HostValue.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostValue.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v79_eq, (hagree c).1, (hagree c).2.1, (hagree c).2.2.1, (hagree c).2.2.2.1,
      (hagree c).2.2.2.2.1, (hagree c).2.2.2.2.2]
    exact (Cert.Bridge.kernelValue_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
